-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1200000 : Shape := ⟨2, ![2, 1200000]⟩
abbrev S50000x64 : Shape := ⟨2, ![50000, 64]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : IVec S2x1200000 32) (main_arg1 : FVec F S50000x64 .f32) (main_arg2 : FVec F S50000x64 .f32) (main_arg3 : FVec F S64x64 .f32) (main_arg4 : FVec F S64 .f32) (main_arg5 : FVec F S64x64 .f32) (main_arg6 : FVec F S64 .f32) : IVec S_ 1 :=
  let main_v0 : FVec F S50000x64 .f32 := Host.absf main_arg1
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg2
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S2x1200000 : Shape := ⟨2, ![2, 1200000]⟩
abbrev S50000x64 : Shape := ⟨2, ![50000, 64]⟩
abbrev S64x64 : Shape := ⟨2, ![64, 64]⟩
abbrev S64 : Shape := ⟨1, ![64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S100000x64 : Shape := ⟨2, ![100000, 64]⟩
abbrev S5000x64 : Shape := ⟨2, ![5000, 64]⟩
abbrev S1300000x64 : Shape := ⟨2, ![1300000, 64]⟩
abbrev S1x64 : Shape := ⟨2, ![1, 64]⟩

abbrev nBuf : Space → Nat
  | .hbm => 89
  | .vmem => 20
  | .smem => 0
  | _ => 0

abbrev bufTy : (tb : Table) → Fin (tcTables nBuf tb) → BufTy
  | .hbm, ⟨0, _⟩ => ⟨S2x1200000, .i32⟩
  | .hbm, ⟨1, _⟩ => ⟨S50000x64, .f32⟩
  | .hbm, ⟨2, _⟩ => ⟨S50000x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S100000, .i32⟩
  | .hbm, ⟨8, _⟩ => ⟨S1x1200000, .i32⟩
  | .hbm, ⟨9, _⟩ => ⟨S1200000, .i32⟩
  | .hbm, ⟨10, _⟩ => ⟨S1300000, .i32⟩
  | .hbm, ⟨11, _⟩ => ⟨S1x1200000, .i32⟩
  | .hbm, ⟨12, _⟩ => ⟨S1200000, .i32⟩
  | .hbm, ⟨13, _⟩ => ⟨S1300000, .i32⟩
  | .hbm, ⟨14, _⟩ => ⟨S_, .f32⟩
  | .hbm, ⟨15, _⟩ => ⟨S1300000, .f32⟩
  | .hbm, ⟨16, _⟩ => ⟨S_, .f32⟩
  | .hbm, ⟨17, _⟩ => ⟨S100000, .f32⟩
  | .hbm, ⟨18, _⟩ => ⟨S1300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1300000, .i32⟩
  | .hbm, ⟨33, _⟩ => ⟨S1300000, .i1⟩
  | .hbm, ⟨34, _⟩ => ⟨S_, .i32⟩
  | .hbm, ⟨35, _⟩ => ⟨S1300000, .i32⟩
  | .hbm, ⟨36, _⟩ => ⟨S1300000, .i32⟩
  | .hbm, ⟨37, _⟩ => ⟨S1300000, .i32⟩
  | .hbm, ⟨38, _⟩ => ⟨S1300000x1, .i32⟩
  | .hbm, ⟨39, _⟩ => ⟨S1300000, .f32⟩
  | .hbm, ⟨40, _⟩ => ⟨S_, .i32⟩
  | .hbm, ⟨41, _⟩ => ⟨S1300000, .i32⟩
  | .hbm, ⟨42, _⟩ => ⟨S1300000, .i1⟩
  | .hbm, ⟨43, _⟩ => ⟨S_, .i32⟩
  | .hbm, ⟨44, _⟩ => ⟨S1300000, .i32⟩
  | .hbm, ⟨45, _⟩ => ⟨S1300000, .i32⟩
  | .hbm, ⟨46, _⟩ => ⟨S1300000, .i32⟩
  | .hbm, ⟨47, _⟩ => ⟨S1300000x1, .i32⟩
  | .hbm, ⟨48, _⟩ => ⟨S1300000, .f32⟩
  | .hbm, ⟨49, _⟩ => ⟨S1300000, .f32⟩
  | .hbm, ⟨50, _⟩ => ⟨S100000x64, .f32⟩
  | .hbm, ⟨51, _⟩ => ⟨S100000x64, .f32⟩
  | .hbm, ⟨52, _⟩ => ⟨S1300000x1, .f32⟩
  | .hbm, ⟨53, _⟩ => ⟨S_, .i32⟩
  | .hbm, ⟨54, _⟩ => ⟨S1300000, .i32⟩
  | .hbm, ⟨55, _⟩ => ⟨S1300000, .i1⟩
  | .hbm, ⟨56, _⟩ => ⟨S_, .i32⟩
  | .hbm, ⟨57, _⟩ => ⟨S1300000, .i32⟩
  | .hbm, ⟨58, _⟩ => ⟨S1300000, .i32⟩
  | .hbm, ⟨59, _⟩ => ⟨S1300000, .i32⟩
  | .hbm, ⟨60, _⟩ => ⟨S1300000x1, .i32⟩
  | .hbm, ⟨61, _⟩ => ⟨S1300000x64, .f32⟩
  | .hbm, ⟨62, _⟩ => ⟨S1300000x64, .f32⟩
  | .hbm, ⟨63, _⟩ => ⟨S1300000x64, .f32⟩
  | .hbm, ⟨64, _⟩ => ⟨S_, .f32⟩
  | .hbm, ⟨65, _⟩ => ⟨S100000x64, .f32⟩
  | .hbm, ⟨66, _⟩ => ⟨S1300000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S1300000x1, .f32⟩
  | .hbm, ⟨72, _⟩ => ⟨S_, .i32⟩
  | .hbm, ⟨73, _⟩ => ⟨S1300000, .i32⟩
  | .hbm, ⟨74, _⟩ => ⟨S1300000, .i1⟩
  | .hbm, ⟨75, _⟩ => ⟨S_, .i32⟩
  | .hbm, ⟨76, _⟩ => ⟨S1300000, .i32⟩
  | .hbm, ⟨77, _⟩ => ⟨S1300000, .i32⟩
  | .hbm, ⟨78, _⟩ => ⟨S1300000, .i32⟩
  | .hbm, ⟨79, _⟩ => ⟨S1300000x1, .i32⟩
  | .hbm, ⟨80, _⟩ => ⟨S1300000x64, .f32⟩
  | .hbm, ⟨81, _⟩ => ⟨S1300000x64, .f32⟩
  | .hbm, ⟨82, _⟩ => ⟨S1300000x64, .f32⟩
  | .hbm, ⟨83, _⟩ => ⟨S_, .f32⟩
  | .hbm, ⟨84, _⟩ => ⟨S100000x64, .f32⟩
  | .hbm, ⟨85, _⟩ => ⟨S1300000x1, .i32⟩
  | .hbm, ⟨86, _⟩ => ⟨S100000x64, .f32⟩
  | .hbm, ⟨87, _⟩ => ⟨S1x64, .f32⟩
  | .hbm, ⟨88, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S2x1200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_c_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  concatenates_S50000x64_S50000x64_S100000x64_d0 : Shape.Concatenates [S50000x64, S50000x64] S100000x64 0
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S5000x64_S64x64_S5000x64_1_0_0_1_n_n_wf : DotDims.WF S5000x64 S64x64 S5000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

abbrev win0_0 : Pipeline.Window sig grid0 :=
  Pipeline.Window.ofSpec (Memref.whole main_v32) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S2x1200000 : Shape := ⟨2, ![2, 1200000]⟩
abbrev S50000x64 : Shape := ⟨2, ![50000, 64]⟩
abbrev S64x64 : Shape := ⟨2, ![64, 64]⟩
abbrev S64 : Shape := ⟨1, ![64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S100000x64 : Shape := ⟨2, ![100000, 64]⟩
abbrev S1300000x64 : Shape := ⟨2, ![1300000, 64]⟩
abbrev S1x64 : Shape := ⟨2, ![1, 64]⟩

abbrev nBuf : Space → Nat
  | .hbm => 94
  | .vmem => 0
  | .smem => 0
  | _ => 0

abbrev bufTy : (tb : Table) → Fin (tcTables nBuf tb) → BufTy
  | .hbm, ⟨0, _⟩ => ⟨S2x1200000, .i32⟩
  | .hbm, ⟨1, _⟩ => ⟨S50000x64, .f32⟩
  | .hbm, ⟨2, _⟩ => ⟨S50000x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S100000, .i32⟩
  | .hbm, ⟨8, _⟩ => ⟨S1x1200000, .i32⟩
  | .hbm, ⟨9, _⟩ => ⟨S1200000, .i32⟩
  | .hbm, ⟨10, _⟩ => ⟨S1300000, .i32⟩
  | .hbm, ⟨11, _⟩ => ⟨S1x1200000, .i32⟩
  | .hbm, ⟨12, _⟩ => ⟨S1200000, .i32⟩
  | .hbm, ⟨13, _⟩ => ⟨S1300000, .i32⟩
  | .hbm, ⟨14, _⟩ => ⟨S_, .f32⟩
  | .hbm, ⟨15, _⟩ => ⟨S1300000, .f32⟩
  | .hbm, ⟨16, _⟩ => ⟨S_, .f32⟩
  | .hbm, ⟨17, _⟩ => ⟨S100000, .f32⟩
  | .hbm, ⟨18, _⟩ => ⟨S1300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1300000, .i32⟩
  | .hbm, ⟨33, _⟩ => ⟨S1300000, .i1⟩
  | .hbm, ⟨34, _⟩ => ⟨S_, .i32⟩
  | .hbm, ⟨35, _⟩ => ⟨S1300000, .i32⟩
  | .hbm, ⟨36, _⟩ => ⟨S1300000, .i32⟩
  | .hbm, ⟨37, _⟩ => ⟨S1300000, .i32⟩
  | .hbm, ⟨38, _⟩ => ⟨S1300000x1, .i32⟩
  | .hbm, ⟨39, _⟩ => ⟨S1300000, .f32⟩
  | .hbm, ⟨40, _⟩ => ⟨S_, .i32⟩
  | .hbm, ⟨41, _⟩ => ⟨S1300000, .i32⟩
  | .hbm, ⟨42, _⟩ => ⟨S1300000, .i1⟩
  | .hbm, ⟨43, _⟩ => ⟨S_, .i32⟩
  | .hbm, ⟨44, _⟩ => ⟨S1300000, .i32⟩
  | .hbm, ⟨45, _⟩ => ⟨S1300000, .i32⟩
  | .hbm, ⟨46, _⟩ => ⟨S1300000, .i32⟩
  | .hbm, ⟨47, _⟩ => ⟨S1300000x1, .i32⟩
  | .hbm, ⟨48, _⟩ => ⟨S1300000, .f32⟩
  | .hbm, ⟨49, _⟩ => ⟨S1300000, .f32⟩
  | .hbm, ⟨50, _⟩ => ⟨S100000x64, .f32⟩
  | .hbm, ⟨51, _⟩ => ⟨S100000x64, .f32⟩
  | .hbm, ⟨52, _⟩ => ⟨S1300000x1, .f32⟩
  | .hbm, ⟨53, _⟩ => ⟨S_, .i32⟩
  | .hbm, ⟨54, _⟩ => ⟨S1300000, .i32⟩
  | .hbm, ⟨55, _⟩ => ⟨S1300000, .i1⟩
  | .hbm, ⟨56, _⟩ => ⟨S_, .i32⟩
  | .hbm, ⟨57, _⟩ => ⟨S1300000, .i32⟩
  | .hbm, ⟨58, _⟩ => ⟨S1300000, .i32⟩
  | .hbm, ⟨59, _⟩ => ⟨S1300000, .i32⟩
  | .hbm, ⟨60, _⟩ => ⟨S1300000x1, .i32⟩
  | .hbm, ⟨61, _⟩ => ⟨S1300000x64, .f32⟩
  | .hbm, ⟨62, _⟩ => ⟨S1300000x64, .f32⟩
  | .hbm, ⟨63, _⟩ => ⟨S1300000x64, .f32⟩
  | .hbm, ⟨64, _⟩ => ⟨S_, .f32⟩
  | .hbm, ⟨65, _⟩ => ⟨S100000x64, .f32⟩
  | .hbm, ⟨66, _⟩ => ⟨S1300000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S1300000x1, .f32⟩
  | .hbm, ⟨76, _⟩ => ⟨S_, .i32⟩
  | .hbm, ⟨77, _⟩ => ⟨S1300000, .i32⟩
  | .hbm, ⟨78, _⟩ => ⟨S1300000, .i1⟩
  | .hbm, ⟨79, _⟩ => ⟨S_, .i32⟩
  | .hbm, ⟨80, _⟩ => ⟨S1300000, .i32⟩
  | .hbm, ⟨81, _⟩ => ⟨S1300000, .i32⟩
  | .hbm, ⟨82, _⟩ => ⟨S1300000, .i32⟩
  | .hbm, ⟨83, _⟩ => ⟨S1300000x1, .i32⟩
  | .hbm, ⟨84, _⟩ => ⟨S1300000x64, .f32⟩
  | .hbm, ⟨85, _⟩ => ⟨S1300000x64, .f32⟩
  | .hbm, ⟨86, _⟩ => ⟨S1300000x64, .f32⟩
  | .hbm, ⟨87, _⟩ => ⟨S_, .f32⟩
  | .hbm, ⟨88, _⟩ => ⟨S100000x64, .f32⟩
  | .hbm, ⟨89, _⟩ => ⟨S1300000x1, .i32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | _, _ => ⟨S2x1200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call1_cst : Ref sig .tc := ⟨.hbm, 71, rfl⟩
abbrev main_call1_v0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_c_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  concatenates_S50000x64_S50000x64_S100000x64_d0 : Shape.Concatenates [S50000x64, S50000x64] S100000x64 0
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x64_S64x64_S100000x64_1_0_0_1_n_n_wf : DotDims.WF S100000x64 S64x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

class Facts : Prop extends Facts₀ where

variable [Facts]
-- ==== Proof.KernelRun.lean ====
/-
  The kernel program's run with its RESULT named. The program is four pipelined regions among stretches of host
  operations. `Gen.W9 m ρ c` is what core `c`'s buffers hold when @main returns: the launch contents carried through each
  stretch's operations and each region's write-backs in turn. Every weakly fair execution terminates there, so the result
  buffer `main_v64` ends at `Gen.W9 m ρ c` read at `main_v64`, and the seven arguments end as launched.
-/
import proofs.«132441_j18485539242072_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds what the last
    segment boundary's contents `Gen.W9` say, and every argument what it held at launch. -/
theorem run_result : θ_run defs (onTc (τ := τ) (main (F := F))) ⟨m, fun _ => 0, ρ⟩ (fun r => ∀ c : Dev nD,
      r.2.mem ((c.tc : Thread nD τ).loc main_v64) = W9 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v64 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Hand

end
-- ==== Proof.Tiles.lean ====
/-
  The two dense layers' tiles, read at an index over the extended reals. Each grid point of a matmul region loads a
  [5000, 64] block of rows and the whole [64, 64] weight, narrows both to bf16 — which over the extended reals changes
  nothing — and multiplies them on the matrix unit into a zero accumulator. So entry (r, c) of the tile it stores is the
  plain sum over k of x(r, k) · w(k, c): no rounding and no order is left in it.
-/
import proofs.«132441_j18485539242072_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.TcCoe

/-- The tile product's dimension numbers: rows × the contracted axis, the contracted axis × columns. -/
abbrev tileDot : DotDims S5000x64 S64x64 S5000x64 := dot_S5000x64_S64x64_S5000x64_1_0_0_1_n_n

/-- Row `j 0` of the left operand at the contracted position `k`. -/
abbrev tileL (j : S5000x64.Idx) (k : Fin 64) : S5000x64.Idx := fun a => match a with
  | ⟨0, _⟩ => ⟨(j 0).val, (j 0).isLt⟩
  | ⟨1, _⟩ => ⟨k.val, k.isLt⟩
/-- Column `j 1` of the weight at the contracted position `k`. -/
abbrev tileR (j : S5000x64.Idx) (k : Fin 64) : S64x64.Idx := fun a => match a with
  | ⟨0, _⟩ => ⟨k.val, k.isLt⟩
  | ⟨1, _⟩ => ⟨(j 1).val, (j 1).isLt⟩

theorem tileDot_lhs0 (i : S5000x64.Idx) (q : tileDot.contr.Idx) : (tileDot.lhsIdx i q 0).val = (i 0).val := by
  unfold DotDims.lhsIdx
  rw [dif_neg (show ¬(0 : Fin S5000x64.rank) ∈ tileDot.lhsBatch by decide), dif_pos (show (0 : Fin S5000x64.rank) ∈ tileDot.lhsNonContracting by decide)]
  rfl
theorem tileDot_lhs1 (i : S5000x64.Idx) (q : tileDot.contr.Idx) : (tileDot.lhsIdx i q 1).val = (q ⟨0, by decide⟩).val :=
  tileDot.lhsIdx_val_of_single rfl i q
theorem tileDot_rhs0 (i : S5000x64.Idx) (q : tileDot.contr.Idx) : (tileDot.rhsIdx i q 0).val = (q ⟨0, by decide⟩).val :=
  tileDot.rhsIdx_val_of_single rfl i q
theorem tileDot_rhs1 (i : S5000x64.Idx) (q : tileDot.contr.Idx) : (tileDot.rhsIdx i q 1).val = (i 1).val := by
  unfold DotDims.rhsIdx
  rw [dif_neg (show ¬(1 : Fin S64x64.rank) ∈ tileDot.rhsBatch by decide), dif_pos (show (1 : Fin S64x64.rank) ∈ tileDot.rhsNonContracting by decide)]
  rfl

/-- A tile product into the zero accumulator, of operands narrowed to bf16, at entry `j`: the sum over the contracted
    axis of row entry times column entry. -/
theorem tile_product_apply (x : FVec Ideal S5000x64 .f32) (w : FVec Ideal S64x64 .f32) (j : S5000x64.Idx) :
    matmul tileDot none (truncf .bf16 x bitsLt_bf16_f32) (truncf .bf16 w bitsLt_bf16_f32) (constant S5000x64 .f32 0x00000000#32) j
      = ∑ k : Fin 64, x (tileL j k) * w (tileR j k) := by
  simp only [matmul]
  rw [Ideal.matmul_constant_zero_apply, ← Equiv.sum_comp (ValueIdx.contrEquiv1 tileDot 64 rfl rfl).symm]
  refine Finset.sum_congr rfl fun k _ => ?_
  have hk := ValueIdx.contrEquiv1_symm_val tileDot 64 rfl rfl k
  have el : tileDot.lhsIdx j ((ValueIdx.contrEquiv1 tileDot 64 rfl rfl).symm k) = tileL j k := funext fun a => Fin.ext (by
    match a with
    | ⟨0, _⟩ => exact tileDot_lhs0 _ _
    | ⟨1, _⟩ => exact (tileDot_lhs1 _ _).trans hk)
  have er : tileDot.rhsIdx j ((ValueIdx.contrEquiv1 tileDot 64 rfl rfl).symm k) = tileR j k := funext fun a => Fin.ext (by
    match a with
    | ⟨0, _⟩ => exact (tileDot_rhs0 _ _).trans hk
    | ⟨1, _⟩ => exact tileDot_rhs1 _ _)
  rw [el, er]
  rfl

/-- The first layer's tile at an entry. -/
theorem layer1_tile_apply (x : Vec Ideal S5000x64 .f32) (w : Vec Ideal S64x64 .f32) (j : S5000x64.Idx) :
    k0_pay1 (F := Ideal) x w j = ∑ k : Fin 64, x (tileL j k) * w (tileR j k) := by
  unfold k0_pay1
  rw [shapeCast_self]
  exact tile_product_apply x w j

/-- The second layer's tile at an entry. -/
theorem layer2_tile_apply (x : Vec Ideal S5000x64 .f32) (w : Vec Ideal S64x64 .f32) (j : S5000x64.Idx) :
    k2_pay1 (F := Ideal) x w j = ∑ k : Fin 64, x (tileL j k) * w (tileR j k) := by
  unfold k2_pay1
  rw [shapeCast_self]
  exact tile_product_apply x w j

/-! ## A dense layer of the whole node table -/

/-- The zero offsets of a load or store of a whole staging buffer. -/
theorem zero_offsets : (![0, 0] : Fin 2 → Nat) = fun _ => 0 := funext fun a => by fin_cases a <;> rfl

/-- Row `i 0` of the node table at the contracted position `k`. -/
abbrev rowAt (i : S100000x64.Idx) (k : Fin 64) : S100000x64.Idx := fun a => match a with
  | ⟨0, _⟩ => ⟨(i 0).val, (i 0).isLt⟩
  | ⟨1, _⟩ => ⟨k.val, k.isLt⟩
/-- Column `i 1` of the weight at the contracted position `k`. -/
abbrev colAt (i : S100000x64.Idx) (k : Fin 64) : S64x64.Idx := fun a => match a with
  | ⟨0, _⟩ => ⟨k.val, k.isLt⟩
  | ⟨1, _⟩ => ⟨(i 1).val, (i 1).isLt⟩

/-- The dense layer `X · W` of the whole [100000, 64] node table, entry by entry, over the extended reals. -/
def denseLayer (X : FVec Ideal S100000x64 .f32) (Wt : FVec Ideal S64x64 .f32) : FVec Ideal S100000x64 .f32 :=
  fun i => ∑ k : Fin 64, X (rowAt i k) * Wt (colAt i k)

end Cert.KernelIdeal.Hand

end
-- ==== Proof.Dense1.lean ====
/-
  The first dense layer as ONE array. Region 0 walks the [100000, 64] node table in twenty blocks of 5000 rows; at
  point t it reads rows 5000·t … 5000·t + 4999 of `main_v32` and the whole weight `main_arg3`, and writes the tile product back
  to the same rows of `main_v33`. Row r of the tile at point t is row 5000·t + r of the table, so every written block is the
  restriction of one whole-table function, `denseLayer`, and the twenty blocks cover the table: the array ends at
  `denseLayer` of the two arrays as the region found them.
-/
import proofs.«132441_j18485539242072_1_alg».proof.Proof.Gen.KernelIdeal.Frame
import proofs.«132441_j18485539242072_1_alg».proof.Proof.Tiles
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The printed index maps over the grid: the row windows sit at block row `t`, column block 0; the weight at (0, 0). -/
theorem dense1_index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the dense layer of the arrays as the region found them. -/
theorem dense1_block (c : Dev nD) (t : Fin cfg0.N) :
    (dat0 V c).flushed 2 t = ((cfg0.win 2).blk t).view.read (Elt Ideal) (denseLayer (V c main_v32) (V c main_arg3)) := by
  show (cfg0.win 2).cut (grid0.coords t) ((dat0 V c).after 2 t) = _
  rw [after0_2]
  unfold out0_2
  rw [View.canon_unit_zero zero_offsets]
  simp only [View.ld_unit_zero (S := S5000x64) zero_offsets, View.ld_unit_zero (S := S64x64) zero_offsets]
  obtain ⟨e0, e1, e2, e3, e4, e5⟩ := dense1_index_maps t
  funext j
  show k0_pay1 (F := Ideal) (iblk0 V c 0 t) (iblk0 V c 1 t) j = _
  refine (layer1_tile_apply (iblk0 V c 0 t) (iblk0 V c 1 t) j).trans ?_
  let X : FVec Ideal S100000x64 .f32 := V c main_v32
  let Wt : FVec Ideal S64x64 .f32 := V c main_arg3
  show (∑ k : Fin 64, X (((cfg0.win 0).blk t).view.emb (tileL j k)) * Wt (((cfg0.win 1).blk t).view.emb (tileR j k)))
    = ∑ k : Fin 64, X (rowAt (((cfg0.win 2).blk t).view.emb j) k) * Wt (colAt (((cfg0.win 2).blk t).view.emb j) k)
  refine Finset.sum_congr rfl fun k _ => ?_
  have h0 : ((cfg0.win 0).blk t).view.emb (tileL j k) = rowAt (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  have h1 : ((cfg0.win 1).blk t).view.emb (tileR j k) = colAt (((cfg0.win 2).blk t).view.emb j) k := by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  rw [h0, h1]

/-- An entry of the table is in point `t`'s block iff each coordinate is in the block's range on its axis. -/
theorem dense1_mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v33).slice (win0_2.rect t)).set ↔ _
  rw [View.set_slice_whole, Rect.mem_set_unit]
  exact Iff.rfl

/-- Row `r` of the table is written at point `r / 5000`. -/
theorem dense1_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 20 := N_0
  obtain ⟨t, ht⟩ : ∃ t : Fin cfg0.N, t.val = (i 0).val / 5000 :=
    ⟨⟨(i 0).val / 5000, lt_of_lt_of_eq (by omega : (i 0).val / 5000 < 20) hN.symm⟩, rfl⟩
  obtain ⟨e0, e1, e2, e3, e4, e5⟩ := dense1_index_maps t
  refine ⟨t, flush0_2 t, ?_⟩
  rw [dense1_mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The region's result array after its last point: the dense layer of the two arrays as the region found them. -/
theorem dense1_array (c : Dev nD) :
    (dat0 V c).arrAt 2 cfg0.N = denseLayer (V c main_v32) (V c main_arg3) :=
  (dat0 V c).arrAt_eq_of_cover 2 (denseLayer (V c main_v32) (V c main_arg3)) (fun t _ => dense1_block V c t) dense1_cover

end Cert.KernelIdeal.Hand

end
-- ==== Proof.Dense2.lean ====
/-
  The second dense layer as ONE array. Region 2 walks the [100000, 64] node table in twenty blocks of 5000 rows; at
  point t it reads rows 5000·t … 5000·t + 4999 of `main_v48` and the whole weight `main_arg5`, and writes the tile product back
  to the same rows of `main_v49`. Row r of the tile at point t is row 5000·t + r of the table, so every written block is the
  restriction of one whole-table function, `denseLayer`, and the twenty blocks cover the table: the array ends at
  `denseLayer` of the two arrays as the region found them.
-/
import proofs.«132441_j18485539242072_1_alg».proof.Proof.Gen.KernelIdeal.Frame
import proofs.«132441_j18485539242072_1_alg».proof.Proof.Tiles
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The printed index maps over the grid: the row windows sit at block row `t`, column block 0; the weight at (0, 0). -/
theorem dense2_index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the dense layer of the arrays as the region found them. -/
theorem dense2_block (c : Dev nD) (t : Fin cfg2.N) :
    (dat2 V c).flushed 2 t = ((cfg2.win 2).blk t).view.read (Elt Ideal) (denseLayer (V c main_v48) (V c main_arg5)) := by
  show (cfg2.win 2).cut (grid2.coords t) ((dat2 V c).after 2 t) = _
  rw [after2_2]
  unfold out2_2
  rw [View.canon_unit_zero zero_offsets]
  simp only [View.ld_unit_zero (S := S5000x64) zero_offsets, View.ld_unit_zero (S := S64x64) zero_offsets]
  obtain ⟨e0, e1, e2, e3, e4, e5⟩ := dense2_index_maps t
  funext j
  show k2_pay1 (F := Ideal) (iblk2 V c 0 t) (iblk2 V c 1 t) j = _
  refine (layer2_tile_apply (iblk2 V c 0 t) (iblk2 V c 1 t) j).trans ?_
  let X : FVec Ideal S100000x64 .f32 := V c main_v48
  let Wt : FVec Ideal S64x64 .f32 := V c main_arg5
  show (∑ k : Fin 64, X (((cfg2.win 0).blk t).view.emb (tileL j k)) * Wt (((cfg2.win 1).blk t).view.emb (tileR j k)))
    = ∑ k : Fin 64, X (rowAt (((cfg2.win 2).blk t).view.emb j) k) * Wt (colAt (((cfg2.win 2).blk t).view.emb j) k)
  refine Finset.sum_congr rfl fun k _ => ?_
  have h0 : ((cfg2.win 0).blk t).view.emb (tileL j k) = rowAt (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have h1 : ((cfg2.win 1).blk t).view.emb (tileR j k) = colAt (((cfg2.win 2).blk t).view.emb j) k := by
    funext a; apply Fin.ext
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega
  rw [h0, h1]

/-- An entry of the table is in point `t`'s block iff each coordinate is in the block's range on its axis. -/
theorem dense2_mem_block (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v49).slice (win2_2.rect t)).set ↔ _
  rw [View.set_slice_whole, Rect.mem_set_unit]
  exact Iff.rfl

/-- Row `r` of the table is written at point `r / 5000`. -/
theorem dense2_cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 20 := N_2
  obtain ⟨t, ht⟩ : ∃ t : Fin cfg2.N, t.val = (i 0).val / 5000 :=
    ⟨⟨(i 0).val / 5000, lt_of_lt_of_eq (by omega : (i 0).val / 5000 < 20) hN.symm⟩, rfl⟩
  obtain ⟨e0, e1, e2, e3, e4, e5⟩ := dense2_index_maps t
  refine ⟨t, flush2_2 t, ?_⟩
  rw [dense2_mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The region's result array after its last point: the dense layer of the two arrays as the region found them. -/
theorem dense2_array (c : Dev nD) :
    (dat2 V c).arrAt 2 cfg2.N = denseLayer (V c main_v48) (V c main_arg5) :=
  (dat2 V c).arrAt_eq_of_cover 2 (denseLayer (V c main_v48) (V c main_arg5)) (fun t _ => dense2_block V c t) dense2_cover

end Cert.KernelIdeal.Hand

end
-- ==== Proof.BiasTiles.lean ====
/-
  The two bias stages' tiles, read at an index (at any float instance: they are pointwise). Each grid point loads a
  [5000, 64] block of aggregated rows and the [1, 64] bias row, broadcasts the bias down the rows and adds; the first
  layer then takes the maximum with zero. So entry (r, c) of the stored tile is agg(r, c) + b(0, c), clamped below at
  zero in the first layer.
-/
import proofs.«132441_j18485539242072_1_alg».proof.Proof.Gen.KernelIdeal.Skeleton
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.TcCoe

variable {F : FTy → Type} [FloatOps F]

/-- The bias row's entry above column `j 1`. -/
abbrev biasAt (j : S5000x64.Idx) : S1x64.Idx := fun a => match a with
  | ⟨0, _⟩ => ⟨0, Nat.one_pos⟩
  | ⟨1, _⟩ => ⟨(j 1).val, (j 1).isLt⟩

/-- The bias row broadcast down the rows of a tile, at an entry. -/
theorem bias_rows_apply (b : Vec F S1x64 .f32) (j : S5000x64.Idx) :
    broadcastTo S5000x64 b broadcasts_S1x64_S5000x64 j = b (biasAt j) :=
  broadcastTo_apply b broadcasts_S1x64_S5000x64 j (biasAt j) (fun a => match a with
    | ⟨0, _⟩ => by show 0 = if (1 : Nat) = 1 then 0 else _; rw [if_pos rfl]
    | ⟨1, _⟩ => by show (j 1).val = if (64 : Nat) = 1 then 0 else (j 1).val; rw [if_neg (by decide)])

/-- The first layer's bias stage at an entry: the aggregate plus the bias, clamped below at zero. -/
theorem bias_relu_tile_apply (x : Vec F S5000x64 .f32) (b : Vec F S1x64 .f32) (j : S5000x64.Idx) :
    k1_pay1 x b j = FloatOps.maximumf (FloatOps.addf (x j) (b (biasAt j))) (FloatOps.ofBits .f32 0x00000000#32) := by
  show FloatOps.maximumf (FloatOps.addf (shapeCast S5000x64 x shapeCasts_S5000x64_S5000x64 j)
      (broadcastTo S5000x64 (shapeCast S1x64 b shapeCasts_S1x64_S1x64) broadcasts_S1x64_S5000x64 j)) (FloatOps.ofBits .f32 0x00000000#32) = _
  rw [shapeCast_self, shapeCast_self, bias_rows_apply]

/-- The second layer's bias stage at an entry: the aggregate plus the bias. -/
theorem bias_add_tile_apply (x : Vec F S5000x64 .f32) (b : Vec F S1x64 .f32) (j : S5000x64.Idx) :
    k3_pay1 x b j = FloatOps.addf (x j) (b (biasAt j)) := by
  show FloatOps.addf (shapeCast S5000x64 x shapeCasts_S5000x64_S5000x64 j)
      (broadcastTo S5000x64 (shapeCast S1x64 b shapeCasts_S1x64_S1x64) broadcasts_S1x64_S5000x64 j) = _
  rw [shapeCast_self, shapeCast_self, bias_rows_apply]

/-! ## The bias stages of the whole node table -/

/-- The zero offsets of a load or store of a whole staging buffer. -/
theorem zero_offsets' : (![0, 0] : Fin 2 → Nat) = fun _ => 0 := funext fun a => by fin_cases a <;> rfl

/-- The bias row's entry above column `i 1` of the node table. -/
abbrev biasOf (i : S100000x64.Idx) : S1x64.Idx := fun a => match a with
  | ⟨0, _⟩ => ⟨0, Nat.one_pos⟩
  | ⟨1, _⟩ => ⟨(i 1).val, (i 1).isLt⟩

/-- The first layer's bias stage of the whole table: aggregate plus bias, clamped below at zero. -/
def biasRelu (X : FVec F S100000x64 .f32) (b : FVec F S1x64 .f32) : FVec F S100000x64 .f32 :=
  fun i => FloatOps.maximumf (FloatOps.addf (X i) (b (biasOf i))) (FloatOps.ofBits .f32 0x00000000#32)

/-- The second layer's bias stage of the whole table: aggregate plus bias. -/
def biasAdd (X : FVec F S100000x64 .f32) (b : FVec F S1x64 .f32) : FVec F S100000x64 .f32 :=
  fun i => FloatOps.addf (X i) (b (biasOf i))

end Cert.KernelIdeal.Hand

end
-- ==== Proof.Bias1.lean ====
/-
  The first layer's bias-and-clamp stage as ONE array. Region 1 walks the [100000, 64] aggregate `main_v46` in twenty blocks of 5000 rows beside the
  [1, 64] bias row `main_v47`, and writes each block's pointwise result back to the same rows of `main_v48`. Every written
  block is the restriction of one whole-table function, `biasRelu`, and the twenty blocks cover the table. Pointwise, so at
  any float instance.
-/
import proofs.«132441_j18485539242072_1_alg».proof.Proof.Gen.KernelIdeal.Frame
import proofs.«132441_j18485539242072_1_alg».proof.Proof.BiasTiles
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The printed index maps over the grid: the row windows sit at block row `t`, column block 0; the bias row at (0, 0). -/
theorem bias1_index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the bias stage of the arrays as the region found them. -/
theorem bias1_block (c : Dev nD) (t : Fin cfg1.N) :
    (dat1 V c).flushed 2 t = ((cfg1.win 2).blk t).view.read (Elt F) (biasRelu (V c main_v46) (V c main_v47)) := by
  show (cfg1.win 2).cut (grid1.coords t) ((dat1 V c).after 2 t) = _
  rw [after1_2]
  unfold out1_2
  rw [View.canon_unit_zero zero_offsets']
  simp only [View.ld_unit_zero (S := S5000x64) zero_offsets', View.ld_unit_zero (S := S1x64) zero_offsets']
  obtain ⟨e0, e1, e2, e3, e4, e5⟩ := bias1_index_maps t
  funext j
  show k1_pay1 (F := F) (iblk1 V c 0 t) (iblk1 V c 1 t) j = _
  refine (bias_relu_tile_apply (iblk1 V c 0 t) (iblk1 V c 1 t) j).trans ?_
  show FloatOps.maximumf (FloatOps.addf (V c main_v46 (((cfg1.win 0).blk t).view.emb j)) (V c main_v47 (((cfg1.win 1).blk t).view.emb (biasAt j)))) (FloatOps.ofBits .f32 0x00000000#32)
    = FloatOps.maximumf (FloatOps.addf (V c main_v46 (((cfg1.win 2).blk t).view.emb j)) (V c main_v47 (biasOf (((cfg1.win 2).blk t).view.emb j)))) (FloatOps.ofBits .f32 0x00000000#32)
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (biasAt j) = biasOf (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  rw [h0, h1]

/-- An entry of the table is in point `t`'s block iff each coordinate is in the block's range on its axis. -/
theorem bias1_mem_block (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v48).slice (win1_2.rect t)).set ↔ _
  rw [View.set_slice_whole, Rect.mem_set_unit]
  exact Iff.rfl

/-- Row `r` of the table is written at point `r / 5000`. -/
theorem bias1_cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 20 := N_1
  obtain ⟨t, ht⟩ : ∃ t : Fin cfg1.N, t.val = (i 0).val / 5000 :=
    ⟨⟨(i 0).val / 5000, lt_of_lt_of_eq (by omega : (i 0).val / 5000 < 20) hN.symm⟩, rfl⟩
  obtain ⟨e0, e1, e2, e3, e4, e5⟩ := bias1_index_maps t
  refine ⟨t, flush1_2 t, ?_⟩
  rw [bias1_mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The region's result array after its last point: the bias stage of the two arrays as the region found them. -/
theorem bias1_array (c : Dev nD) :
    (dat1 V c).arrAt 2 cfg1.N = biasRelu (V c main_v46) (V c main_v47) :=
  (dat1 V c).arrAt_eq_of_cover 2 (biasRelu (V c main_v46) (V c main_v47)) (fun t _ => bias1_block V c t) bias1_cover

end Cert.KernelIdeal.Hand

end
-- ==== Proof.Bias2.lean ====
/-
  The second layer's bias stage as ONE array. Region 3 walks the [100000, 64] aggregate `main_v62` in twenty blocks of 5000 rows beside the
  [1, 64] bias row `main_v63`, and writes each block's pointwise result back to the same rows of `main_v64`. Every written
  block is the restriction of one whole-table function, `biasAdd`, and the twenty blocks cover the table. Pointwise, so at
  any float instance.
-/
import proofs.«132441_j18485539242072_1_alg».proof.Proof.Gen.KernelIdeal.Frame
import proofs.«132441_j18485539242072_1_alg».proof.Proof.BiasTiles
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The printed index maps over the grid: the row windows sit at block row `t`, column block 0; the bias row at (0, 0). -/
theorem bias2_index_maps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the bias stage of the arrays as the region found them. -/
theorem bias2_block (c : Dev nD) (t : Fin cfg3.N) :
    (dat3 V c).flushed 2 t = ((cfg3.win 2).blk t).view.read (Elt F) (biasAdd (V c main_v62) (V c main_v63)) := by
  show (cfg3.win 2).cut (grid3.coords t) ((dat3 V c).after 2 t) = _
  rw [after3_2]
  unfold out3_2
  rw [View.canon_unit_zero zero_offsets']
  simp only [View.ld_unit_zero (S := S5000x64) zero_offsets', View.ld_unit_zero (S := S1x64) zero_offsets']
  obtain ⟨e0, e1, e2, e3, e4, e5⟩ := bias2_index_maps t
  funext j
  show k3_pay1 (F := F) (iblk3 V c 0 t) (iblk3 V c 1 t) j = _
  refine (bias_add_tile_apply (iblk3 V c 0 t) (iblk3 V c 1 t) j).trans ?_
  show FloatOps.addf (V c main_v62 (((cfg3.win 0).blk t).view.emb j)) (V c main_v63 (((cfg3.win 1).blk t).view.emb (biasAt j)))
    = FloatOps.addf (V c main_v62 (((cfg3.win 2).blk t).view.emb j)) (V c main_v63 (biasOf (((cfg3.win 2).blk t).view.emb j)))
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb (biasAt j) = biasOf (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  rw [h0, h1]

/-- An entry of the table is in point `t`'s block iff each coordinate is in the block's range on its axis. -/
theorem bias2_mem_block (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v64).slice (win3_2.rect t)).set ↔ _
  rw [View.set_slice_whole, Rect.mem_set_unit]
  exact Iff.rfl

/-- Row `r` of the table is written at point `r / 5000`. -/
theorem bias2_cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : grid3.N = 20 := N_3
  obtain ⟨t, ht⟩ : ∃ t : Fin cfg3.N, t.val = (i 0).val / 5000 :=
    ⟨⟨(i 0).val / 5000, lt_of_lt_of_eq (by omega : (i 0).val / 5000 < 20) hN.symm⟩, rfl⟩
  obtain ⟨e0, e1, e2, e3, e4, e5⟩ := bias2_index_maps t
  refine ⟨t, flush3_2 t, ?_⟩
  rw [bias2_mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The region's result array after its last point: the bias stage of the two arrays as the region found them. -/
theorem bias2_array (c : Dev nD) :
    (dat3 V c).arrAt 2 cfg3.N = biasAdd (V c main_v62) (V c main_v63) :=
  (dat3 V c).arrAt_eq_of_cover 2 (biasAdd (V c main_v62) (V c main_v63)) (fun t _ => bias2_block V c t) bias2_cover

end Cert.KernelIdeal.Hand

end
-- ==== Proof.HostStages.lean ====
/-
  The host stretches of the kernel program, read against the reference's stages. Around its four regions the kernel program
  runs exactly the reference's graph operations: the edge lists with their self-loops (`row`, `col`), the degree count
  and the symmetric normalisation `norm`, the stacked node table, and — once per layer — the gather of the dense layer's
  rows along `row`, the scaling by `norm` and the scatter-add along `col`. Each lemma below says: if the buffers a stretch
  reads hold the reference's stages of the arguments, the buffer it writes holds the reference's next stage, the two programs
  applying the same operations to the same operands there; and a buffer a stretch does not write keeps its contents. Nothing
  here depends on what else the device's buffers hold, nor on the float arithmetic.
-/
import proofs.«132441_j18485539242072_1_alg».proof.Proof.Gen.KernelIdeal.Launch
import proofs.«132441_j18485539242072_1_alg».proof.Proof.RefRead
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.ReadP (val_main_v3 val_main_v6 val_main_v31 val_main_v32 val_main_v33 val_main_v46 val_main_v51 val_main_v64)

variable {F : FTy → Type} [FloatOps F]
variable (W : Valuation τ sig (Elt F))

/-- Reads a buffer back through a line of host operations: each operation's result at its own buffer is its function of
    its operands' contents, and at any other buffer what was there. -/
local macro "read_back" : tactic => `(tactic| (
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))))

/-! ## Before the first region: the graph's structure and the node table -/

/-- The three stretches before the first region, run from contents `W`. -/
abbrev afterHead : Valuation τ sig (Elt F) :=
  StableHlo.after hostOps0_2 (StableHlo.after hostOps0_1 (StableHlo.after hostOps0 W))

/-- `row`: the edges' sources followed by the self-loops. -/
theorem head_row : afterHead W (Proc.devRef .tc main_v3) = val_main_v3 (F := F) (W (Proc.devRef .tc main_arg0)) := by
  dsimp only [afterHead, hostOps0, hostOps0_1, hostOps0_2]
  read_back <;> rfl

/-- `col`: the edges' targets followed by the self-loops. -/
theorem head_col : afterHead W (Proc.devRef .tc main_v6) = val_main_v6 (F := F) (W (Proc.devRef .tc main_arg0)) := by
  dsimp only [afterHead, hostOps0, hostOps0_1, hostOps0_2]
  read_back <;> rfl

set_option maxHeartbeats 4000000 in
/-- `norm`: per edge, the inverse square roots of the two end points' degrees, multiplied. -/
theorem head_norm : afterHead W (Proc.devRef .tc main_v31) = val_main_v31 (F := F) (W (Proc.devRef .tc main_arg0)) := by
  dsimp only [afterHead, hostOps0, hostOps0_1, hostOps0_2]
  read_back <;> rfl

set_option maxHeartbeats 4000000 in
/-- The node table: the user rows stacked on the item rows. -/
theorem head_nodes : afterHead W (Proc.devRef .tc main_v32)
    = val_main_v32 (F := F) (W (Proc.devRef .tc main_arg1)) (W (Proc.devRef .tc main_arg2)) := by
  dsimp only [afterHead, hostOps0, hostOps0_1, hostOps0_2]
  read_back <;> rfl

theorem head_keep_arg3 : afterHead W (Proc.devRef .tc main_arg3) = W (Proc.devRef .tc main_arg3) := by
  dsimp only [afterHead, hostOps0, hostOps0_1, hostOps0_2]
  read_back <;> rfl
theorem head_keep_arg4 : afterHead W (Proc.devRef .tc main_arg4) = W (Proc.devRef .tc main_arg4) := by
  dsimp only [afterHead, hostOps0, hostOps0_1, hostOps0_2]
  read_back <;> rfl
theorem head_keep_arg5 : afterHead W (Proc.devRef .tc main_arg5) = W (Proc.devRef .tc main_arg5) := by
  dsimp only [afterHead, hostOps0, hostOps0_1, hostOps0_2]
  read_back <;> rfl
theorem head_keep_arg6 : afterHead W (Proc.devRef .tc main_arg6) = W (Proc.devRef .tc main_arg6) := by
  dsimp only [afterHead, hostOps0, hostOps0_1, hostOps0_2]
  read_back <;> rfl

/-! ## Between the first dense layer and its bias stage: the first aggregation -/

set_option maxHeartbeats 4000000 in
/-- The aggregate of the first layer: gather the dense layer's rows along `row`, scale by `norm`, scatter-add along `col`. -/
theorem mid1_aggregate (a0 : (⟨S2x1200000, .i32⟩ : BufTy).Contents (Elt F)) (a1 a2 : (⟨S50000x64, .f32⟩ : BufTy).Contents (Elt F))
    (a3 : (⟨S64x64, .f32⟩ : BufTy).Contents (Elt F))
    (hnorm : W (Proc.devRef .tc main_v31) = val_main_v31 (F := F) a0) (hrow : W (Proc.devRef .tc main_v3) = val_main_v3 (F := F) a0)
    (hcol : W (Proc.devRef .tc main_v6) = val_main_v6 (F := F) a0) (hxw : W (Proc.devRef .tc main_v33) = val_main_v33 (F := F) a1 a2 a3) :
    StableHlo.after hostOps1 W (Proc.devRef .tc main_v46) = val_main_v46 (F := F) a0 a1 a2 a3 := by
  dsimp only [hostOps1]
  read_back
  rw [hnorm, hrow, hcol, hxw]
  rfl

/-- The first bias as a one-row table. -/
theorem mid1_bias : StableHlo.after hostOps1 W (Proc.devRef .tc main_v47)
    = shapeCast S1x64 (W (Proc.devRef .tc main_arg4)) shapeCasts_S64_S1x64 := by
  dsimp only [hostOps1]
  read_back <;> rfl

theorem mid1_keep_v3 : StableHlo.after hostOps1 W (Proc.devRef .tc main_v3) = W (Proc.devRef .tc main_v3) := by
  dsimp only [hostOps1]
  read_back <;> rfl
theorem mid1_keep_v6 : StableHlo.after hostOps1 W (Proc.devRef .tc main_v6) = W (Proc.devRef .tc main_v6) := by
  dsimp only [hostOps1]
  read_back <;> rfl
theorem mid1_keep_v31 : StableHlo.after hostOps1 W (Proc.devRef .tc main_v31) = W (Proc.devRef .tc main_v31) := by
  dsimp only [hostOps1]
  read_back <;> rfl
theorem mid1_keep_arg5 : StableHlo.after hostOps1 W (Proc.devRef .tc main_arg5) = W (Proc.devRef .tc main_arg5) := by
  dsimp only [hostOps1]
  read_back <;> rfl
theorem mid1_keep_arg6 : StableHlo.after hostOps1 W (Proc.devRef .tc main_arg6) = W (Proc.devRef .tc main_arg6) := by
  dsimp only [hostOps1]
  read_back <;> rfl

/-! ## Between the second dense layer and its bias stage: the second aggregation -/

set_option maxHeartbeats 4000000 in
/-- The aggregate of the second layer, the same three steps over the second dense layer. -/
theorem mid2_aggregate (a0 : (⟨S2x1200000, .i32⟩ : BufTy).Contents (Elt F)) (a1 a2 : (⟨S50000x64, .f32⟩ : BufTy).Contents (Elt F))
    (a3 : (⟨S64x64, .f32⟩ : BufTy).Contents (Elt F)) (a4 : (⟨S64, .f32⟩ : BufTy).Contents (Elt F)) (a5 : (⟨S64x64, .f32⟩ : BufTy).Contents (Elt F))
    (hnorm : W (Proc.devRef .tc main_v31) = val_main_v31 (F := F) a0) (hrow : W (Proc.devRef .tc main_v3) = val_main_v3 (F := F) a0)
    (hcol : W (Proc.devRef .tc main_v6) = val_main_v6 (F := F) a0) (hxw : W (Proc.devRef .tc main_v49) = val_main_v51 (F := F) a0 a1 a2 a3 a4 a5) :
    StableHlo.after hostOps3 W (Proc.devRef .tc main_v62) = val_main_v64 (F := F) a0 a1 a2 a3 a4 a5 := by
  dsimp only [hostOps3]
  read_back
  rw [hnorm, hrow, hcol, hxw]
  rfl

/-- The second bias as a one-row table. -/
theorem mid2_bias : StableHlo.after hostOps3 W (Proc.devRef .tc main_v63)
    = shapeCast S1x64 (W (Proc.devRef .tc main_arg6)) shapeCasts_S64_S1x64 := by
  dsimp only [hostOps3]
  read_back <;> rfl

end Cert.KernelIdeal.Hand

end
-- ==== Proof.Boundaries.lean ====
/-
  The kernel program's result as the reference's last stage. The device's buffers are followed from the launch to the
  return, one segment at a time: the graph's structure (`row`, `col`, `norm`) and the node table are the reference's
  stages of the arguments; the first matmul region leaves the first dense layer, which over the extended reals is the
  reference's `dot_general` (both are the sum over the 64 contracted positions of row entry times column entry); the first
  aggregation is the reference's; the first bias region leaves max(agg + b₁, 0), the reference's `relu` of its sum; the second
  matmul region, the second aggregation and the second bias region likewise. The structure buffers and the later arguments
  are written by nothing in between, so each later segment reads them as the head left them.
-/
import proofs.«132441_j18485539242072_1_alg».proof.Proof.Gen.KernelIdeal.Frame
import proofs.«132441_j18485539242072_1_alg».proof.Proof.Dense1
import proofs.«132441_j18485539242072_1_alg».proof.Proof.Dense2
import proofs.«132441_j18485539242072_1_alg».proof.Proof.Bias1
import proofs.«132441_j18485539242072_1_alg».proof.Proof.Bias2
import proofs.«132441_j18485539242072_1_alg».proof.Proof.HostStages
import proofs.«132441_j18485539242072_1_alg».proof.Proof.RefRead
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.ReadP (val_main_v3 val_main_v6 val_main_v31 val_main_v32 val_main_v33 val_main_v46 val_main_v47 val_main_v48 val_main_v49
  val_main_v50 val_main_v51 val_main_v64 val_main_v65 val_main_v66 val_main_v67 val_main_call1_v0 val_main_call1_cst)

variable (m : (ℓ : Loc nD τ sig) → Buf (Elt Ideal) ℓ) (ρ : Dev nD → PrngReg) (c : Dev nD)

/-! ## The two dense layers and the two bias stages are the reference's stages -/

/-- The reference's `dot_general` of a table and a weight is the dense layer: the same sum at every entry. -/
theorem dense_is_dot1 (a1 a2 : (⟨S50000x64, .f32⟩ : BufTy).Contents (Elt Ideal)) (a3 : (⟨S64x64, .f32⟩ : BufTy).Contents (Elt Ideal)) :
    denseLayer (val_main_v32 (F := Ideal) a1 a2) a3 = val_main_v33 (F := Ideal) a1 a2 a3 := by
  funext i
  rw [Cert.ReferenceIdeal.ReadP.val_main_v33_apply]
  rfl

theorem dense_is_dot2 (a0 : (⟨S2x1200000, .i32⟩ : BufTy).Contents (Elt Ideal)) (a1 a2 : (⟨S50000x64, .f32⟩ : BufTy).Contents (Elt Ideal))
    (a3 : (⟨S64x64, .f32⟩ : BufTy).Contents (Elt Ideal)) (a4 : (⟨S64, .f32⟩ : BufTy).Contents (Elt Ideal)) (a5 : (⟨S64x64, .f32⟩ : BufTy).Contents (Elt Ideal)) :
    denseLayer (val_main_v50 (F := Ideal) a0 a1 a2 a3 a4) a5 = val_main_v51 (F := Ideal) a0 a1 a2 a3 a4 a5 := by
  funext i
  rw [Cert.ReferenceIdeal.ReadP.val_main_v51_apply]
  rfl

/-- A [64] bias read as a one-row table, at the entry above column `i 1`, is the bias at `i 1`. -/
theorem bias_row_apply {F : FTy → Type} [FloatOps F] (b : (⟨S64, .f32⟩ : BufTy).Contents (Elt F)) (i : S100000x64.Idx)
    (k : S64.Idx) (hk : (k 0).val = (i 1).val) :
    shapeCast S1x64 b shapeCasts_S64_S1x64 (biasOf i) = b k :=
  shapeCast_apply b shapeCasts_S64_S1x64 (biasOf i) k (by
    rw [Shape.rowMajor_val_one, Shape.rowMajor_val_two]
    show (k 0).val = 0 * 64 + (i 1).val
    omega)

/-- The first bias stage over the aggregate is the reference's `relu (agg + b₁)` (pointwise: at any float instance). -/
theorem bias_relu_is_stage {F : FTy → Type} [FloatOps F] (a0 : (⟨S2x1200000, .i32⟩ : BufTy).Contents (Elt F)) (a1 a2 : (⟨S50000x64, .f32⟩ : BufTy).Contents (Elt F))
    (a3 : (⟨S64x64, .f32⟩ : BufTy).Contents (Elt F)) (a4 : (⟨S64, .f32⟩ : BufTy).Contents (Elt F)) :
    biasRelu (F := F) (val_main_v46 (F := F) a0 a1 a2 a3) (shapeCast S1x64 a4 shapeCasts_S64_S1x64) = val_main_v50 (F := F) a0 a1 a2 a3 a4 := by
  funext i
  rw [Cert.ReferenceIdeal.ReadP.val_main_v50_apply, Cert.ReferenceIdeal.ReadP.val_main_v49_apply, Cert.ReferenceIdeal.ReadP.val_main_v48_apply, Cert.ReferenceIdeal.ReadP.val_main_v47_apply,
    Cert.ReferenceIdeal.ReadP.val_main_call1_v0_apply, Cert.ReferenceIdeal.ReadP.val_main_call1_cst_apply]
  show FloatOps.maximumf (FloatOps.addf (val_main_v46 (F := F) a0 a1 a2 a3 i) (shapeCast S1x64 a4 shapeCasts_S64_S1x64 (biasOf i)))
      (FloatOps.ofBits .f32 0x00000000#32) = _
  rw [bias_row_apply a4 i (Cert.ReferenceIdeal.ReadP.idx_main_v47 (Cert.ReferenceIdeal.ReadP.idx_main_v48 i)) rfl]

/-- The second bias stage over the aggregate is the reference's `agg + b₂` (pointwise: at any float instance). -/
theorem bias_add_is_stage {F : FTy → Type} [FloatOps F] (a0 : (⟨S2x1200000, .i32⟩ : BufTy).Contents (Elt F)) (a1 a2 : (⟨S50000x64, .f32⟩ : BufTy).Contents (Elt F))
    (a3 : (⟨S64x64, .f32⟩ : BufTy).Contents (Elt F)) (a4 : (⟨S64, .f32⟩ : BufTy).Contents (Elt F)) (a5 : (⟨S64x64, .f32⟩ : BufTy).Contents (Elt F))
    (a6 : (⟨S64, .f32⟩ : BufTy).Contents (Elt F)) :
    biasAdd (F := F) (val_main_v64 (F := F) a0 a1 a2 a3 a4 a5) (shapeCast S1x64 a6 shapeCasts_S64_S1x64) = val_main_v67 (F := F) a0 a1 a2 a3 a4 a5 a6 := by
  funext i
  rw [Cert.ReferenceIdeal.ReadP.val_main_v67_apply, Cert.ReferenceIdeal.ReadP.val_main_v66_apply, Cert.ReferenceIdeal.ReadP.val_main_v65_apply]
  show FloatOps.addf (val_main_v64 (F := F) a0 a1 a2 a3 a4 a5 i) (shapeCast S1x64 a6 shapeCasts_S64_S1x64 (biasOf i)) = _
  rw [bias_row_apply a6 i (Cert.ReferenceIdeal.ReadP.idx_main_v65 (Cert.ReferenceIdeal.ReadP.idx_main_v66 i)) rfl]

/-! ## The buffers, boundary by boundary -/

/-- The arguments' launch contents. -/
abbrev arg0 := m ((c : Thread nD τ).loc main_arg0)
abbrev arg1 := m ((c : Thread nD τ).loc main_arg1)
abbrev arg2 := m ((c : Thread nD τ).loc main_arg2)
abbrev arg3 := m ((c : Thread nD τ).loc main_arg3)
abbrev arg4 := m ((c : Thread nD τ).loc main_arg4)
abbrev arg5 := m ((c : Thread nD τ).loc main_arg5)
abbrev arg6 := m ((c : Thread nD τ).loc main_arg6)

/-! ### Entering the first matmul region -/
theorem at3_row : W3 m ρ c (Proc.devRef .tc main_v3) = val_main_v3 (F := Ideal) (arg0 m c) := head_row (W0 m ρ c)
theorem at3_col : W3 m ρ c (Proc.devRef .tc main_v6) = val_main_v6 (F := Ideal) (arg0 m c) := head_col (W0 m ρ c)
theorem at3_norm : W3 m ρ c (Proc.devRef .tc main_v31) = val_main_v31 (F := Ideal) (arg0 m c) := head_norm (W0 m ρ c)
theorem at3_nodes : W3 m ρ c (Proc.devRef .tc main_v32) = val_main_v32 (F := Ideal) (arg1 m c) (arg2 m c) := head_nodes (W0 m ρ c)
theorem at3_arg3 : W3 m ρ c (Proc.devRef .tc main_arg3) = arg3 m c := head_keep_arg3 (W0 m ρ c)
theorem at3_arg4 : W3 m ρ c (Proc.devRef .tc main_arg4) = arg4 m c := head_keep_arg4 (W0 m ρ c)
theorem at3_arg5 : W3 m ρ c (Proc.devRef .tc main_arg5) = arg5 m c := head_keep_arg5 (W0 m ρ c)
theorem at3_arg6 : W3 m ρ c (Proc.devRef .tc main_arg6) = arg6 m c := head_keep_arg6 (W0 m ρ c)

/-! ### Leaving it: the first dense layer -/
theorem at4_dense : W4 m ρ c (Proc.devRef .tc main_v33) = val_main_v33 (F := Ideal) (arg1 m c) (arg2 m c) (arg3 m c) := by
  refine (W4_arr m ρ c 2).trans ((dense1_array (V3 m ρ) c).trans ?_)
  show denseLayer (W3 m ρ c (Proc.devRef .tc main_v32)) (W3 m ρ c (Proc.devRef .tc main_arg3)) = _
  rw [at3_nodes, at3_arg3, dense_is_dot1]
theorem at4_row : W4 m ρ c (Proc.devRef .tc main_v3) = val_main_v3 (F := Ideal) (arg0 m c) :=
  (W4_of_ne m ρ c main_v3 (by decide)).trans (at3_row m ρ c)
theorem at4_col : W4 m ρ c (Proc.devRef .tc main_v6) = val_main_v6 (F := Ideal) (arg0 m c) :=
  (W4_of_ne m ρ c main_v6 (by decide)).trans (at3_col m ρ c)
theorem at4_norm : W4 m ρ c (Proc.devRef .tc main_v31) = val_main_v31 (F := Ideal) (arg0 m c) :=
  (W4_of_ne m ρ c main_v31 (by decide)).trans (at3_norm m ρ c)
theorem at4_arg4 : W4 m ρ c (Proc.devRef .tc main_arg4) = arg4 m c := (W4_of_ne m ρ c main_arg4 (by decide)).trans (at3_arg4 m ρ c)
theorem at4_arg5 : W4 m ρ c (Proc.devRef .tc main_arg5) = arg5 m c := (W4_of_ne m ρ c main_arg5 (by decide)).trans (at3_arg5 m ρ c)
theorem at4_arg6 : W4 m ρ c (Proc.devRef .tc main_arg6) = arg6 m c := (W4_of_ne m ρ c main_arg6 (by decide)).trans (at3_arg6 m ρ c)

/-! ### Entering the first bias region: the first aggregate and the bias row -/
theorem at5_agg : W5 m ρ c (Proc.devRef .tc main_v46) = val_main_v46 (F := Ideal) (arg0 m c) (arg1 m c) (arg2 m c) (arg3 m c) :=
  mid1_aggregate (W4 m ρ c) _ _ _ _ (at4_norm m ρ c) (at4_row m ρ c) (at4_col m ρ c) (at4_dense m ρ c)
theorem at5_bias : W5 m ρ c (Proc.devRef .tc main_v47) = shapeCast S1x64 (arg4 m c) shapeCasts_S64_S1x64 :=
  (mid1_bias (W4 m ρ c)).trans (by rw [at4_arg4])
theorem at5_row : W5 m ρ c (Proc.devRef .tc main_v3) = val_main_v3 (F := Ideal) (arg0 m c) := (mid1_keep_v3 (W4 m ρ c)).trans (at4_row m ρ c)
theorem at5_col : W5 m ρ c (Proc.devRef .tc main_v6) = val_main_v6 (F := Ideal) (arg0 m c) := (mid1_keep_v6 (W4 m ρ c)).trans (at4_col m ρ c)
theorem at5_norm : W5 m ρ c (Proc.devRef .tc main_v31) = val_main_v31 (F := Ideal) (arg0 m c) := (mid1_keep_v31 (W4 m ρ c)).trans (at4_norm m ρ c)
theorem at5_arg5 : W5 m ρ c (Proc.devRef .tc main_arg5) = arg5 m c := (mid1_keep_arg5 (W4 m ρ c)).trans (at4_arg5 m ρ c)
theorem at5_arg6 : W5 m ρ c (Proc.devRef .tc main_arg6) = arg6 m c := (mid1_keep_arg6 (W4 m ρ c)).trans (at4_arg6 m ρ c)

/-! ### Leaving it: the first layer's output -/
theorem at6_layer1 : W6 m ρ c (Proc.devRef .tc main_v48) = val_main_v50 (F := Ideal) (arg0 m c) (arg1 m c) (arg2 m c) (arg3 m c) (arg4 m c) := by
  refine (W6_arr m ρ c 2).trans ((bias1_array (V5 m ρ) c).trans ?_)
  show biasRelu (F := Ideal) (W5 m ρ c (Proc.devRef .tc main_v46)) (W5 m ρ c (Proc.devRef .tc main_v47)) = _
  rw [at5_agg, at5_bias, bias_relu_is_stage]
theorem at6_row : W6 m ρ c (Proc.devRef .tc main_v3) = val_main_v3 (F := Ideal) (arg0 m c) := (W6_of_ne m ρ c main_v3 (by decide)).trans (at5_row m ρ c)
theorem at6_col : W6 m ρ c (Proc.devRef .tc main_v6) = val_main_v6 (F := Ideal) (arg0 m c) := (W6_of_ne m ρ c main_v6 (by decide)).trans (at5_col m ρ c)
theorem at6_norm : W6 m ρ c (Proc.devRef .tc main_v31) = val_main_v31 (F := Ideal) (arg0 m c) := (W6_of_ne m ρ c main_v31 (by decide)).trans (at5_norm m ρ c)
theorem at6_arg5 : W6 m ρ c (Proc.devRef .tc main_arg5) = arg5 m c := (W6_of_ne m ρ c main_arg5 (by decide)).trans (at5_arg5 m ρ c)
theorem at6_arg6 : W6 m ρ c (Proc.devRef .tc main_arg6) = arg6 m c := (W6_of_ne m ρ c main_arg6 (by decide)).trans (at5_arg6 m ρ c)

/-! ### Leaving the second matmul region: the second dense layer -/
theorem at7_dense : W7 m ρ c (Proc.devRef .tc main_v49)
    = val_main_v51 (F := Ideal) (arg0 m c) (arg1 m c) (arg2 m c) (arg3 m c) (arg4 m c) (arg5 m c) := by
  refine (W7_arr m ρ c 2).trans ((dense2_array (V6 m ρ) c).trans ?_)
  show denseLayer (W6 m ρ c (Proc.devRef .tc main_v48)) (W6 m ρ c (Proc.devRef .tc main_arg5)) = _
  rw [at6_layer1, at6_arg5, dense_is_dot2]
theorem at7_row : W7 m ρ c (Proc.devRef .tc main_v3) = val_main_v3 (F := Ideal) (arg0 m c) := (W7_of_ne m ρ c main_v3 (by decide)).trans (at6_row m ρ c)
theorem at7_col : W7 m ρ c (Proc.devRef .tc main_v6) = val_main_v6 (F := Ideal) (arg0 m c) := (W7_of_ne m ρ c main_v6 (by decide)).trans (at6_col m ρ c)
theorem at7_norm : W7 m ρ c (Proc.devRef .tc main_v31) = val_main_v31 (F := Ideal) (arg0 m c) := (W7_of_ne m ρ c main_v31 (by decide)).trans (at6_norm m ρ c)
theorem at7_arg6 : W7 m ρ c (Proc.devRef .tc main_arg6) = arg6 m c := (W7_of_ne m ρ c main_arg6 (by decide)).trans (at6_arg6 m ρ c)

/-! ### Entering the second bias region: the second aggregate and the bias row -/
theorem at8_agg : W8 m ρ c (Proc.devRef .tc main_v62)
    = val_main_v64 (F := Ideal) (arg0 m c) (arg1 m c) (arg2 m c) (arg3 m c) (arg4 m c) (arg5 m c) :=
  mid2_aggregate (W7 m ρ c) _ _ _ _ _ _ (at7_norm m ρ c) (at7_row m ρ c) (at7_col m ρ c) (at7_dense m ρ c)
theorem at8_bias : W8 m ρ c (Proc.devRef .tc main_v63) = shapeCast S1x64 (arg6 m c) shapeCasts_S64_S1x64 :=
  (mid2_bias (W7 m ρ c)).trans (by rw [at7_arg6])

/-! ### At the return: the result -/
/-- What the result buffer holds when @main returns: the reference's last stage of the seven arguments. -/
theorem at9_result : W9 m ρ c (Proc.devRef .tc main_v64)
    = val_main_v67 (F := Ideal) (arg0 m c) (arg1 m c) (arg2 m c) (arg3 m c) (arg4 m c) (arg5 m c) (arg6 m c) := by
  refine (W9_arr m ρ c 2).trans ((bias2_array (V8 m ρ) c).trans ?_)
  show biasAdd (F := Ideal) (W8 m ρ c (Proc.devRef .tc main_v62)) (W8 m ρ c (Proc.devRef .tc main_v63)) = _
  rw [at8_agg, at8_bias, bias_add_is_stage]

end Cert.KernelIdeal.Hand

end
-- ==== Proof.lean ====
/-
  A two-layer graph convolution over 100000 nodes of width 64: out = Â · relu(Â · (X W₁) + b₁) W₂ + b₂, with
  Â = D^{-1/2}(A + I)D^{-1/2} applied as gather along `row`, scaling by `norm`, scatter-add along `col`.
  The kernel program keeps the graph operations on the host and runs four pipelined regions: X·W₁ and (·)·W₂ as tiles of
  5000 rows on the matrix unit with operands narrowed to bf16, and the two bias stages as tiles of 5000 rows. The
  reference computes the same formula with two whole `dot_general`s, a broadcast add and `relu`.
  Over the extended reals narrowing to bf16 is the identity and a matrix-unit product into a zero accumulator is the plain
  sum over the contracted axis, so every tile is the restriction of the reference's whole-table stage to its 5000 rows,
  and the twenty tiles cover the table; the host operations between the regions are the reference's own. Both programs
  therefore end at the same function of the seven arguments. No law of arithmetic is used beyond that: the two sides
  are the same sums of the same products in the same order, so the inputs' finiteness is never opened.
  The ideal pass rewrote nothing, so the idealized kernel is the kernel's own text read over the extended reals.
-/
import proofs.«132441_j18485539242072_1_alg».proof.Defs
import proofs.«132441_j18485539242072_1_alg».proof.Proof.Gen.Kernel
import proofs.«132441_j18485539242072_1_alg».proof.Proof.Gen.Kernel.Skeleton
import proofs.«132441_j18485539242072_1_alg».proof.Proof.Gen.Kernel.Launch
import proofs.«132441_j18485539242072_1_alg».proof.Proof.Gen.Kernel.Points
import proofs.«132441_j18485539242072_1_alg».proof.Proof.Gen.Kernel.Frame
import proofs.«132441_j18485539242072_1_alg».proof.Proof.Gen.KernelIdeal
import proofs.«132441_j18485539242072_1_alg».proof.Proof.Gen.KernelIdeal.Skeleton
import proofs.«132441_j18485539242072_1_alg».proof.Proof.Gen.KernelIdeal.Launch
import proofs.«132441_j18485539242072_1_alg».proof.Proof.Gen.KernelIdeal.Points
import proofs.«132441_j18485539242072_1_alg».proof.Proof.Gen.KernelIdeal.Frame
import proofs.«132441_j18485539242072_1_alg».proof.Proof.Gen.ReferenceIdeal
import proofs.«132441_j18485539242072_1_alg».proof.Proof.Gen.Pre_finite_inputs
import proofs.«132441_j18485539242072_1_alg».proof.Proof.RefRun
import proofs.«132441_j18485539242072_1_alg».proof.Proof.RefRead
import proofs.«132441_j18485539242072_1_alg».proof.Proof.KernelRun
import proofs.«132441_j18485539242072_1_alg».proof.Proof.Boundaries
import Idealize.ShloMosaic.Adequacy
import Idealize.ShloMosaic.Init

noncomputable section

namespace Cert.Proof

open Idealize.ShloMosaic Idealize.SL.Sem

/-- The kernel program as printed runs without a fault and leaves its arguments as launched. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of host operations: its run, with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- No operation of the kernel was rewritten on the way to the extended reals. -/
theorem preserves : Cert.preserves_Kernel_KernelIdeal := trivial

/-- From memories agreeing on the seven arguments both programs end with the result at the reference's last stage of
    those arguments: the kernel program by following its buffers through the four regions, the reference by its run. -/
theorem algebraic : Cert.algebraic_KernelIdeal_ReferenceIdeal := by
  intro m ρ m' ρ' _ hagree
  refine ⟨fun c => Cert.ReferenceIdeal.ReadP.val_main_v67 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Hand.at9_result m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v67_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
